-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096x1 : Shape := ⟨2, ![4096, 1]⟩
abbrev S128x4096 : Shape := ⟨2, ![128, 4096]⟩
abbrev S128x1 : Shape := ⟨2, ![128, 1]⟩
abbrev S128x4095 : Shape := ⟨2, ![128, 4095]⟩
abbrev S128x4094 : Shape := ⟨2, ![128, 4094]⟩
abbrev S128 : Shape := ⟨1, ![128]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x1, .f32⟩
  | .local _ .vmem, ⟨5, _⟩ => ⟨S128x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x4096_S128x4096_0_0 : ∀ a, (![0, 0] : Fin 2 → Nat) a + S128x4096.size a ≤ S128x4096.size a
  h_S128x4096 : 0 < S128x4096.numel
  slices_S128x4096_o0_1_S128x4095 : S128x4096.Slices ![0, 1] S128x4095
  slices_S128x4096_o0_0_S128x4095 : S128x4096.Slices ![0, 0] S128x4095
  slices_S128x4096_o0_1_S128x4094 : S128x4096.Slices ![0, 1] S128x4094
  slices_S128x4095_o0_0_S128x4094 : S128x4095.Slices ![0, 0] S128x4094
  slices_S128x4095_o0_1_S128x4094 : S128x4095.Slices ![0, 1] S128x4094
  natLt_1_32 : 1 < 32
  reduces_S128x4094_S128 : S128x4094.Reduces [1] S128
  shapeCasts_S128_S128x1 : S128.ShapeCasts S128x1
  broadcasts_S128x1_S128x4094 : S128x1.Broadcasts S128x4094
  inb_S128x1_S128x1_0_0 : ∀ a, (![0, 0] : Fin 2 → Nat) a + S128x1.size a ≤ S128x1.size a
  h_S128x1 : 0 < S128x1.numel
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x4095 : Shape := ⟨2, ![4096, 4095]⟩
abbrev S4096x4094 : Shape := ⟨2, ![4096, 4094]⟩
abbrev S_ : Shape := ⟨0, ![]⟩
abbrev S4096 : Shape := ⟨1, ![4096]⟩
abbrev S4096x1 : Shape := ⟨2, ![4096, 1]⟩
abbrev S4096x2 : Shape := ⟨2, ![4096, 2]⟩

abbrev nBuf : Space → Nat
  | .hbm => 130
  | .vmem => 0
  | .smem => 0
  | _ => 0

abbrev hbmTy0_0 (i : Nat) : BufTy := match i % 128 with
  | 0 => ⟨S4096x4096, .f32⟩
  | 1 => ⟨S4096x4096, .f32⟩
  | 2 => ⟨S4096x4095, .f32⟩
  | 3 => ⟨S4096x4095, .f32⟩
  | 4 => ⟨S4096x4095, .f32⟩
  | 5 => ⟨S4096x4094, .f32⟩
  | 6 => ⟨S4096x4094, .f32⟩
  | 7 => ⟨S_, .f32⟩
  | 8 => ⟨S4096x4094, .f32⟩
  | 9 => ⟨S4096x4094, .i1⟩
  | 10 => ⟨S4096x4094, .f32⟩
  | 11 => ⟨S_, .f32⟩
  | 12 => ⟨S4096x4094, .f32⟩
  | 13 => ⟨S4096x4094, .i1⟩
  | 14 => ⟨S4096x4094, .i1⟩
  | 15 => ⟨S4096x4094, .f32⟩
  | 16 => ⟨S_, .f32⟩
  | 17 => ⟨S4096x4094, .f32⟩
  | 18 => ⟨S4096x4094, .i1⟩
  | 19 => ⟨S4096x4094, .f32⟩
  | 20 => ⟨S_, .f32⟩
  | 21 => ⟨S4096x4094, .f32⟩
  | 22 => ⟨S4096x4094, .i1⟩
  | 23 => ⟨S4096x4094, .i1⟩
  | 24 => ⟨S4096x4094, .f32⟩
  | 25 => ⟨S4096x4094, .f32⟩
  | 26 => ⟨S_, .f32⟩
  | 27 => ⟨S4096, .f32⟩
  | 28 => ⟨S_, .f32⟩
  | 29 => ⟨S4096, .f32⟩
  | 30 => ⟨S4096, .f32⟩
  | 31 => ⟨S4096x4094, .f32⟩
  | 32 => ⟨S4096x4094, .f32⟩
  | 33 => ⟨S_, .f32⟩
  | 34 => ⟨S4096, .f32⟩
  | 35 => ⟨S_, .f32⟩
  | 36 => ⟨S4096, .f32⟩
  | 37 => ⟨S4096, .f32⟩
  | 38 => ⟨S4096x1, .f32⟩
  | 39 => ⟨S4096x4094, .f32⟩
  | 40 => ⟨S4096x4094, .i1⟩
  | 41 => ⟨S4096x4094, .i1⟩
  | 42 => ⟨S4096x4094, .f32⟩
  | 43 => ⟨S4096x4094, .f32⟩
  | 44 => ⟨S_, .f32⟩
  | 45 => ⟨S4096, .f32⟩
  | 46 => ⟨S_, .f32⟩
  | 47 => ⟨S4096, .f32⟩
  | 48 => ⟨S4096, .f32⟩
  | 49 => ⟨S4096x1, .f32⟩
  | 50 => ⟨S4096x4094, .f32⟩
  | 51 => ⟨S4096x4094, .i1⟩
  | 52 => ⟨S4096x4094, .i1⟩
  | 53 => ⟨S4096x4094, .f32⟩
  | 54 => ⟨S4096x4094, .f32⟩
  | 55 => ⟨S_, .f32⟩
  | 56 => ⟨S4096, .f32⟩
  | 57 => ⟨S_, .f32⟩
  | 58 => ⟨S4096, .f32⟩
  | 59 => ⟨S4096, .f32⟩
  | 60 => ⟨S4096x1, .f32⟩
  | 61 => ⟨S4096x1, .f32⟩
  | 62 => ⟨S4096x2, .f32⟩
  | 63 => ⟨S4096x4095, .f32⟩
  | 64 => ⟨S4096x4095, .f32⟩
  | 65 => ⟨S4096x4095, .f32⟩
  | 66 => ⟨S4096x4094, .f32⟩
  | 67 => ⟨S4096x4094, .f32⟩
  | 68 => ⟨S_, .f32⟩
  | 69 => ⟨S4096x4094, .f32⟩
  | 70 => ⟨S4096x4094, .i1⟩
  | 71 => ⟨S4096x4094, .f32⟩
  | 72 => ⟨S_, .f32⟩
  | 73 => ⟨S4096x4094, .f32⟩
  | 74 => ⟨S4096x4094, .i1⟩
  | 75 => ⟨S4096x4094, .i1⟩
  | 76 => ⟨S4096x4094, .f32⟩
  | 77 => ⟨S_, .f32⟩
  | 78 => ⟨S4096x4094, .f32⟩
  | 79 => ⟨S4096x4094, .i1⟩
  | 80 => ⟨S4096x4094, .f32⟩
  | 81 => ⟨S_, .f32⟩
  | 82 => ⟨S4096x4094, .f32⟩
  | 83 => ⟨S4096x4094, .i1⟩
  | 84 => ⟨S4096x4094, .i1⟩
  | 85 => ⟨S4096x4094, .f32⟩
  | 86 => ⟨S4096x4094, .f32⟩
  | 87 => ⟨S_, .f32⟩
  | 88 => ⟨S4096, .f32⟩
  | 89 => ⟨S_, .f32⟩
  | 90 => ⟨S4096, .f32⟩
  | 91 => ⟨S4096, .f32⟩
  | 92 => ⟨S4096x4094, .f32⟩
  | 93 => ⟨S4096x4094, .f32⟩
  | 94 => ⟨S_, .f32⟩
  | 95 => ⟨S4096, .f32⟩
  | 96 => ⟨S_, .f32⟩
  | 97 => ⟨S4096, .f32⟩
  | 98 => ⟨S4096, .f32⟩
  | 99 => ⟨S4096x1, .f32⟩
  | 100 => ⟨S4096x4094, .f32⟩
  | 101 => ⟨S4096x4094, .i1⟩
  | 102 => ⟨S4096x4094, .i1⟩
  | 103 => ⟨S4096x4094, .f32⟩
  | 104 => ⟨S4096x4094, .f32⟩
  | 105 => ⟨S_, .f32⟩
  | 106 => ⟨S4096, .f32⟩
  | 107 => ⟨S_, .f32⟩
  | 108 => ⟨S4096, .f32⟩
  | 109 => ⟨S4096, .f32⟩
  | 110 => ⟨S4096x1, .f32⟩
  | 111 => ⟨S4096x4094, .f32⟩
  | 112 => ⟨S4096x4094, .i1⟩
  | 113 => ⟨S4096x4094, .i1⟩
  | 114 => ⟨S4096x4094, .f32⟩
  | 115 => ⟨S4096x4094, .f32⟩
  | 116 => ⟨S_, .f32⟩
  | 117 => ⟨S4096, .f32⟩
  | 118 => ⟨S_, .f32⟩
  | 119 => ⟨S4096, .f32⟩
  | 120 => ⟨S4096, .f32⟩
  | 121 => ⟨S4096x1, .f32⟩
  | 122 => ⟨S4096x1, .f32⟩
  | 123 => ⟨S4096x2, .f32⟩
  | 124 => ⟨S4096x2, .f32⟩
  | 125 => ⟨S4096x2, .f32⟩
  | 126 => ⟨S_, .f32⟩
  | 127 => ⟨S_, .f32⟩
  | _ => ⟨S4096x4096, .f32⟩

abbrev hbmTy0_1 (i : Nat) : BufTy := match i % 128 with
  | 0 => ⟨S_, .f32⟩
  | 1 => ⟨S_, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call1_v0 : Ref sig .tc := ⟨.hbm, 63, rfl⟩
abbrev main_call1_v1 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_cst_18 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_19 : Ref sig .tc := ⟨.hbm, 105, rfl⟩
abbrev main_v79 : Ref sig .tc := ⟨.hbm, 106, rfl⟩
abbrev main_cst_20 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_21 : Ref sig .tc := ⟨.hbm, 116, rfl⟩
abbrev main_v88 : Ref sig .tc := ⟨.hbm, 117, rfl⟩
abbrev main_cst_22 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_23 : Ref sig .tc := ⟨.hbm, 126, rfl⟩
abbrev main_v96 : Ref sig .tc := ⟨.hbm, 127, rfl⟩
abbrev main_cst_24 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S4096x4096_S4096x4095_0_1 : S4096x4096.Slices ![0, 1] S4096x4095
  slices_S4096x4096_S4096x4095_0_0 : S4096x4096.Slices ![0, 0] S4096x4095
  slices_S4096x4096_S4096x4094_0_1 : S4096x4096.Slices ![0, 1] S4096x4094
  slices_S4096x4095_S4096x4094_0_0 : S4096x4095.Slices ![0, 0] S4096x4094
  bcast_S_S4096x4094 : S_.BroadcastsInDim S4096x4094 (![] : Fin 0 → Fin S4096x4094.rank)
  slices_S4096x4095_S4096x4094_0_1 : S4096x4095.Slices ![0, 1] S4096x4094
  reducesTo_S4096x4094_S4096_d1 : S4096x4094.ReducesTo [1] S4096
  h_S_ : 0 < S_.numel
  bcast_S4096_S4096x1_0 : S4096.BroadcastsInDim S4096x1 (![0] : Fin 1 → Fin S4096x1.rank)
  bcast_S4096x1_S4096x4094_0_1 : S4096x1.BroadcastsInDim S4096x4094 (![0, 1] : Fin 2 → Fin S4096x4094.rank)
  concatenates_S4096x1_S4096x1_S4096x2_d1 : Shape.Concatenates [S4096x1, S4096x1] S4096x2 1
  reducesTo_S4096x2_S_d0_1 : S4096x2.ReducesTo [0, 1] S_

variable [Facts₀]

class Facts : Prop extends Facts₀ where

variable [Facts]
-- ==== Proof.Spec.lean ====
/-
  The quantity both programs compute, written once, row by row, on the extended reals.

  For a row x of 4096 numbers: its successive differences d j = x (j+1) - x j (4095 of them), its interior
  points x (k+1) (4094 of them), the interior points that are strict local maxima (d k > 0 and d (k+1) < 0) and
  strict local minima (d k < 0 and d (k+1) > 0), each as a one-bit word; the mean of the interior points over a
  one-bit mask, as the quotient of the masked sum by the mask's count (the quotient is the ideal division, whatever it
  gives at 0 / 0); the mean of the maxima that are at least the mean of all maxima, and of the minima that are at most
  the mean of all minima. For two arrays of 4096 rows the result is the sum over the rows of the squared differences
  of these two means, divided by the word 8192.
-/
import Idealize.ShloMosaic.PureOps.Ideal
import Idealize.ShloMosaic.Lib.ValueIdx

noncomputable section

namespace Cert.PV

open Idealize.ShloMosaic

/-- The f32 zero word, read as an extended real. -/
abbrev zeroW : EReal := Ideal.ofBits .f32 0x00000000#32

/-- A one-bit word as the number 0 or 1. -/
def ind (b : BitVec 1) : EReal := ((b.toNat : ℝ) : EReal)

/-- Position k of the 4094 interior points, as a position among the 4095 differences: the difference ending at the point. -/
abbrev lo (k : Fin 4094) : Fin 4095 := ⟨k.val, by have := k.isLt; omega⟩
/-- The difference starting at the point. -/
abbrev hi (k : Fin 4094) : Fin 4095 := ⟨k.val + 1, by have := k.isLt; omega⟩

/-- The successive differences of a row. -/
def dif (x : Fin 4096 → EReal) (j : Fin 4095) : EReal :=
  x ⟨j.val + 1, by have := j.isLt; omega⟩ - x ⟨j.val, by have := j.isLt; omega⟩

/-- The interior points of a row. -/
def mid (x : Fin 4096 → EReal) (k : Fin 4094) : EReal := x ⟨k.val + 1, by have := k.isLt; omega⟩

/-- The strict local maxima among the interior points. -/
def peak (x : Fin 4096 → EReal) (k : Fin 4094) : BitVec 1 :=
  IntOp.andi (Ideal.cmp .ogt (dif x (lo k)) zeroW) (Ideal.cmp .olt (dif x (hi k)) zeroW)

/-- The strict local minima among the interior points. -/
def valley (x : Fin 4096 → EReal) (k : Fin 4094) : BitVec 1 :=
  IntOp.andi (Ideal.cmp .olt (dif x (lo k)) zeroW) (Ideal.cmp .ogt (dif x (hi k)) zeroW)

/-- The mean of the interior points over a mask: the masked sum over the mask's count. -/
def mmean (x : Fin 4096 → EReal) (msk : Fin 4094 → BitVec 1) : EReal :=
  Ideal.div (∑ k : Fin 4094, mid x k * ind (msk k)) (∑ k : Fin 4094, ind (msk k))

/-- The mean of the maxima that are at least the mean of all maxima. -/
def sbp (x : Fin 4096 → EReal) : EReal :=
  mmean x fun k => IntOp.andi (peak x k) (Ideal.cmp .oge (mid x k) (mmean x (peak x)))

/-- The mean of the minima that are at most the mean of all minima. -/
def dbp (x : Fin 4096 → EReal) : EReal :=
  mmean x fun k => IntOp.andi (valley x k) (Ideal.cmp .ole (mid x k) (mmean x (valley x)))

/-- One row's contribution: the two squared differences, added. -/
def rowLoss (p l : Fin 4096 → EReal) : EReal :=
  (sbp p - sbp l) * (sbp p - sbp l) + (dbp p - dbp l) * (dbp p - dbp l)

/-- Row r of an array of R rows of 4096. -/
def row {R : Nat} (X : (⟨2, ![R, 4096]⟩ : Shape).Idx → EReal) (r : Fin R) : Fin 4096 → EReal :=
  fun c => X (ValueIdx.ix2 r c)

/-- The result: the rows' contributions summed, over the word 8192. -/
def total (P L : (⟨2, ![4096, 4096]⟩ : Shape).Idx → EReal) : EReal :=
  Ideal.div (∑ r : Fin 4096, rowLoss (row P r) (row L r)) (Ideal.ofBits .f32 0x46000000#32)

end Cert.PV

end
-- ==== Proof.KerOps.lean ====
/-
  The kernel's arithmetic, row by row.

  The kernel's body holds a block of 128 rows of each input. Written over whole 128-row vectors it is: the
  successive differences of each row (two slices one column apart, subtracted), the interior points (one slice),
  the one-bit masks of strict local maxima and minima (two comparisons of neighbouring differences with zero,
  and-ed), a masked mean (the mask as a number, the masked lane sum over the mask's lane sum, as a column), and the
  two refined means (the mask and-ed with a comparison against the first mean broadcast along the row). This module
  names these vector terms, shows the body's stored value is their composition, and reads each at row r as the
  row-wise quantity of the specification.
-/
import proofs.«169107_j29343216566541_1_alg».proof.Proof.Gen.KernelIdeal.Skeleton
import proofs.«169107_j29343216566541_1_alg».proof.Proof.Spec
import Idealize.ShloMosaic.PureOps.Ideal.Laws
import Idealize.ShloMosaic.Lib.ValueIdx
import Idealize.ShloMosaic.Lib.Pipeline.Value

noncomputable section

namespace Cert.PV.Ker

open Cert.KernelIdeal Cert.KernelIdeal.Gen Idealize.ShloMosaic Idealize.ShloMosaic.ValueIdx Cert.PV

section Terms

variable {F : FTy → Type} [FloatOps F]

/-- Each row's successive differences: columns 1… minus columns 0…. -/
def kdiff (x : Vec F S128x4096 .f32) : FVec F S128x4095 .f32 :=
  subf (extractStridedSlice S128x4095 ![0, 1] x slices_S128x4096_o0_1_S128x4095)
    (extractStridedSlice S128x4095 ![0, 0] x slices_S128x4096_o0_0_S128x4095)

/-- Each row's interior points. -/
def kmid (x : Vec F S128x4096 .f32) : FVec F S128x4094 .f32 :=
  extractStridedSlice S128x4094 ![0, 1] x slices_S128x4096_o0_1_S128x4094

/-- The strict local maxima: the difference ending at the point above zero, the one starting at it below. -/
def kpeak (x : Vec F S128x4096 .f32) : IVec S128x4094 1 :=
  andi (cmpf .ogt (extractStridedSlice S128x4094 ![0, 0] (kdiff x) slices_S128x4095_o0_0_S128x4094) (broadcast S128x4094 (Scalar.ofBits .f32 0x00000000#32)))
    (cmpf .olt (extractStridedSlice S128x4094 ![0, 1] (kdiff x) slices_S128x4095_o0_1_S128x4094) (broadcast S128x4094 (Scalar.ofBits .f32 0x00000000#32)))

/-- The strict local minima. -/
def kvalley (x : Vec F S128x4096 .f32) : IVec S128x4094 1 :=
  andi (cmpf .olt (extractStridedSlice S128x4094 ![0, 0] (kdiff x) slices_S128x4095_o0_0_S128x4094) (broadcast S128x4094 (Scalar.ofBits .f32 0x00000000#32)))
    (cmpf .ogt (extractStridedSlice S128x4094 ![0, 1] (kdiff x) slices_S128x4095_o0_1_S128x4094) (broadcast S128x4094 (Scalar.ofBits .f32 0x00000000#32)))

/-- A one-bit mask as numbers. -/
def kfm (mk : IVec S128x4094 1) : FVec F S128x4094 .f32 := sitofp .f32 (extui 32 mk natLt_1_32)

/-- Each row's sum, as a column. -/
def ksum (v : FVec F S128x4094 .f32) : FVec F S128x1 .f32 :=
  shapeCast S128x1 (multiReduction .add [1] S128 v 0x00000000#32 reduces_S128x4094_S128 (.inl rfl) rfl) shapeCasts_S128_S128x1

/-- Each row's masked mean, as a column. -/
def kmm (v : FVec F S128x4094 .f32) (mk : IVec S128x4094 1) : FVec F S128x1 .f32 :=
  divf (ksum (mulf v (kfm mk))) (ksum (kfm mk))

/-- A column repeated along the rows. -/
def kcol (c : FVec F S128x1 .f32) : FVec F S128x4094 .f32 := broadcastTo S128x4094 c broadcasts_S128x1_S128x4094

/-- The mean of the maxima at least the mean of all maxima. -/
def ksbp (x : Vec F S128x4096 .f32) : FVec F S128x1 .f32 :=
  kmm (kmid x) (andi (kpeak x) (cmpf .oge (kmid x) (kcol (kmm (kmid x) (kpeak x)))))

/-- The mean of the minima at most the mean of all minima. -/
def kdbp (x : Vec F S128x4096 .f32) : FVec F S128x1 .f32 :=
  kmm (kmid x) (andi (kvalley x) (cmpf .ole (kmid x) (kcol (kmm (kmid x) (kvalley x)))))

/-- The stored column: the two squared differences of the inputs' means, added. -/
def kout (x0 x1 : Vec F S128x4096 .f32) : FVec F S128x1 .f32 :=
  addf (mulf (subf (ksbp x0) (ksbp x1)) (subf (ksbp x0) (ksbp x1))) (mulf (subf (kdbp x0) (kdbp x1)) (subf (kdbp x0) (kdbp x1)))

/-- The body's stored value is that composition. -/
theorem pay_eq (x0 x1 : Vec F S128x4096 .f32) :
    k0_pay1 (k0_pay9 (k0_pay7 x0) (k0_pay8 x0)) (k0_pay10 (k0_pay3 x0) (k0_pay4 x0) (k0_pay5 x0)) (k0_pay12 x1) (k0_pay13 x1) (k0_pay14 x1) (k0_pay15 x1)
      = kout x0 x1 := rfl

end Terms

/-! ## Read at a row -/

/-- A one-bit word widened and read as a signed integer is the number 0 or 1. -/
theorem ind_setWidth (b : BitVec 1) : (((b.setWidth 32).toInt : ℝ) : EReal) = ind b := by
  rcases BitVec.eq_zero_or_eq_one b with h | h <;> subst h <;> simp [ind]

/-- A slice that keeps the rows and starts at column o, read at (r, j), is the operand at (r, o + j). -/
theorem slice_apply {α : Type} {n n' : Nat} (o : Nat) (x : (⟨2, ![128, n]⟩ : Shape).Idx → α)
    (h : (⟨2, ![128, n]⟩ : Shape).Slices ![0, o] ⟨2, ![128, n']⟩) (r : Fin 128) (j : Fin n') (c : Fin n) (hc : c.val = o + j.val) :
    extractStridedSlice ⟨2, ![128, n']⟩ ![0, o] x h (ix2 r j) = x (ix2 r c) :=
  extractStridedSlice_apply ![0, o] x h (ix2 r j) (ix2 r c) (fun a => match a with
    | ⟨0, _⟩ => by show r.val = 0 + r.val; omega
    | ⟨1, _⟩ => hc)

theorem kdiff_apply (x : Vec Ideal S128x4096 .f32) (r : Fin 128) (j : Fin 4095) :
    kdiff x (ix2 r j) = dif (row x r) j := by
  unfold kdiff dif row
  refine (subf_apply _ _ _).trans ?_
  exact congrArg₂ (· - ·) (slice_apply 1 x _ r j ⟨j.val + 1, by have := j.isLt; omega⟩ (by show j.val + 1 = 1 + j.val; omega))
    (slice_apply 0 x _ r j ⟨j.val, by have := j.isLt; omega⟩ (by show j.val = 0 + j.val; omega))

theorem kmid_apply (x : Vec Ideal S128x4096 .f32) (r : Fin 128) (k : Fin 4094) :
    kmid x (ix2 r k) = mid (row x r) k := by
  unfold kmid mid row
  exact slice_apply 1 x _ r k ⟨k.val + 1, by have := k.isLt; omega⟩ (by show k.val + 1 = 1 + k.val; omega)

theorem kpeak_apply (x : Vec Ideal S128x4096 .f32) (r : Fin 128) (k : Fin 4094) :
    kpeak x (ix2 r k) = peak (row x r) k := by
  unfold kpeak peak
  show IntOp.andi (Ideal.cmp .ogt (extractStridedSlice S128x4094 ![0, 0] (kdiff x) slices_S128x4095_o0_0_S128x4094 (ix2 r k)) zeroW)
      (Ideal.cmp .olt (extractStridedSlice S128x4094 ![0, 1] (kdiff x) slices_S128x4095_o0_1_S128x4094 (ix2 r k)) zeroW) = _
  rw [slice_apply 0 (kdiff x) _ r k (lo k) (by show k.val = 0 + k.val; omega),
    slice_apply 1 (kdiff x) _ r k (hi k) (by show k.val + 1 = 1 + k.val; omega), kdiff_apply, kdiff_apply]

theorem kvalley_apply (x : Vec Ideal S128x4096 .f32) (r : Fin 128) (k : Fin 4094) :
    kvalley x (ix2 r k) = valley (row x r) k := by
  unfold kvalley valley
  show IntOp.andi (Ideal.cmp .olt (extractStridedSlice S128x4094 ![0, 0] (kdiff x) slices_S128x4095_o0_0_S128x4094 (ix2 r k)) zeroW)
      (Ideal.cmp .ogt (extractStridedSlice S128x4094 ![0, 1] (kdiff x) slices_S128x4095_o0_1_S128x4094 (ix2 r k)) zeroW) = _
  rw [slice_apply 0 (kdiff x) _ r k (lo k) (by show k.val = 0 + k.val; omega),
    slice_apply 1 (kdiff x) _ r k (hi k) (by show k.val + 1 = 1 + k.val; omega), kdiff_apply, kdiff_apply]

theorem kfm_apply (mk : IVec S128x4094 1) (i : S128x4094.Idx) : kfm (F := Ideal) mk i = ind (mk i) :=
  ind_setWidth (mk i)

/-- A row's lane sum, cast to a column, is the sum over the row. -/
theorem ksum_apply (v : FVec Ideal S128x4094 .f32) (r : Fin 128) :
    ksum v (ix2 r (0 : Fin 1)) = ∑ k : Fin 4094, v (ix2 r k) := by
  unfold ksum
  refine (shapeCast_apply _ shapeCasts_S128_S128x1 (ix2 r (0 : Fin 1)) (ix1 r) (by
    rw [Shape.rowMajor_val_one, Shape.rowMajor_val_two]; show r.val = r.val * 1 + 0; omega)).trans ?_
  refine (Ideal.multiReduction_add_single v 0x00000000#32 reduces_S128x4094_S128 (.inl rfl) rfl (ix1 r)).trans ?_
  exact Finset.sum_congr rfl fun k _ => congrArg v (funext fun a => Fin.ext (by match a with | ⟨0, _⟩ => rfl | ⟨1, _⟩ => rfl))

theorem kmm_apply (v : FVec Ideal S128x4094 .f32) (mk : IVec S128x4094 1) (r : Fin 128) :
    kmm v mk (ix2 r (0 : Fin 1)) = Ideal.div (∑ k : Fin 4094, v (ix2 r k) * ind (mk (ix2 r k))) (∑ k : Fin 4094, ind (mk (ix2 r k))) := by
  unfold kmm
  refine (divf_apply _ _ _).trans ?_
  refine congrArg₂ Ideal.div ((ksum_apply _ r).trans (Finset.sum_congr rfl fun k _ => ?_)) ((ksum_apply _ r).trans (Finset.sum_congr rfl fun k _ => kfm_apply mk _))
  exact (mulf_apply _ _ _).trans (congrArg (v (ix2 r k) * ·) (kfm_apply mk _))

/-- The masked mean of the interior points, at row r, is the specification's. -/
theorem kmean_apply (x : Vec Ideal S128x4096 .f32) (mk : IVec S128x4094 1) (r : Fin 128) :
    kmm (kmid x) mk (ix2 r (0 : Fin 1)) = mmean (row x r) (fun k => mk (ix2 r k)) := by
  rw [kmm_apply]; unfold mmean
  exact congrArg₂ Ideal.div (Finset.sum_congr rfl fun k _ => congrArg (· * ind (mk (ix2 r k))) (kmid_apply x r k)) rfl

/-- A column repeated along the rows, read at (r, k), is the column at r. -/
theorem kcol_apply (c : FVec Ideal S128x1 .f32) (r : Fin 128) (k : Fin 4094) : kcol c (ix2 r k) = c (ix2 r (0 : Fin 1)) := by
  unfold kcol
  refine broadcastTo_apply c broadcasts_S128x1_S128x4094 (ix2 r k) (ix2 r (0 : Fin 1)) fun ax => ?_
  match ax with
  | ⟨0, _⟩ => rfl
  | ⟨1, _⟩ => rfl

theorem ksbp_apply (x : Vec Ideal S128x4096 .f32) (r : Fin 128) : ksbp x (ix2 r (0 : Fin 1)) = sbp (row x r) := by
  unfold ksbp sbp
  rw [kmean_apply]
  refine congrArg (mmean (row x r)) (funext fun k => ?_)
  show IntOp.andi (kpeak x (ix2 r k)) (Ideal.cmp .oge (kmid x (ix2 r k)) (kcol (kmm (kmid x) (kpeak x)) (ix2 r k))) = _
  rw [kpeak_apply, kmid_apply, kcol_apply, kmean_apply, show (fun k => kpeak x (ix2 r k)) = peak (row x r) from funext fun k => kpeak_apply x r k]

theorem kdbp_apply (x : Vec Ideal S128x4096 .f32) (r : Fin 128) : kdbp x (ix2 r (0 : Fin 1)) = dbp (row x r) := by
  unfold kdbp dbp
  rw [kmean_apply]
  refine congrArg (mmean (row x r)) (funext fun k => ?_)
  show IntOp.andi (kvalley x (ix2 r k)) (Ideal.cmp .ole (kmid x (ix2 r k)) (kcol (kmm (kmid x) (kvalley x)) (ix2 r k))) = _
  rw [kvalley_apply, kmid_apply, kcol_apply, kmean_apply, show (fun k => kvalley x (ix2 r k)) = valley (row x r) from funext fun k => kvalley_apply x r k]

/-- The stored column at row r is that row's contribution. -/
theorem kout_apply (x0 x1 : Vec Ideal S128x4096 .f32) (r : Fin 128) :
    kout x0 x1 (ix2 r (0 : Fin 1)) = rowLoss (row x0 r) (row x1 r) := by
  unfold kout rowLoss
  show (ksbp x0 (ix2 r (0 : Fin 1)) - ksbp x1 (ix2 r (0 : Fin 1))) * (ksbp x0 (ix2 r (0 : Fin 1)) - ksbp x1 (ix2 r (0 : Fin 1)))
    + (kdbp x0 (ix2 r (0 : Fin 1)) - kdbp x1 (ix2 r (0 : Fin 1))) * (kdbp x0 (ix2 r (0 : Fin 1)) - kdbp x1 (ix2 r (0 : Fin 1))) = _
  rw [ksbp_apply, ksbp_apply, kdbp_apply, kdbp_apply]

end Cert.PV.Ker

end
-- ==== Proof.KerValue.lean ====
/-
  From blocks to the array, and the host operations after the region.

  The kernel runs on a grid of 32 points; point t holds rows 128 t … 128 t + 127 of each input (all 4096 columns) and
  writes rows 128 t … 128 t + 127 of the one-column output. Since the body's stored column at row r of the block is
  that row's contribution (a function of the row alone), the output array ends holding, at row i, the contribution
  of row i of the two argument arrays; the blocks cover the array (row i lies in block i / 128). The two host
  operations after the region sum that column from zero and divide by the word 8192: the specification's total.
-/
import proofs.«169107_j29343216566541_1_alg».proof.Proof.Gen.KernelIdeal.Frame
import proofs.«169107_j29343216566541_1_alg».proof.Proof.KerOps
import Idealize.ShloMosaic.Lib.Pipeline.Value
import Idealize.ShloMosaic.Lib.StableHlo.Run
import Idealize.ShloMosaic.PureOps.Ideal.Laws

set_option maxRecDepth 16384

noncomputable section

namespace Cert.PV.KerValue

open Cert.KernelIdeal Cert.KernelIdeal.Gen Idealize.ShloMosaic Idealize.ShloMosaic.TcCoe Idealize.SL.Sem
open Idealize.ShloMosaic.ValueIdx Cert.PV Cert.PV.Ker
open Idealize.ShloMosaic.Pipeline (Dat Cfg Window)

variable (m : (ℓ : Loc nD τ sig) → Buf (Elt Ideal) ℓ) (ρ : Dev nD → PrngReg)

/-- What the output array ends holding: at row i, the contribution of row i of the two arrays. -/
def G (P L : S4096x4096.Idx → EReal) : S4096x1.Idx → EReal :=
  fun i => rowLoss (row P ⟨(i 0).val, idx2_lt0 i⟩) (row L ⟨(i 0).val, idx2_lt0 i⟩)

theorem hz : (![0, 0] : Fin 2 → Nat) = fun _ => 0 := funext fun a => by fin_cases a <;> rfl

/-- The printed index maps over the grid: at point t every window's block is block t along the rows and block 0 along
    the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- At one grid point: if the two loaded blocks are rows 128 q … of the two arrays, the stored column at a row of the
    block is the array-level function at the corresponding row of the output. -/
theorem point (x0 x1 : Vec Ideal S128x4096 .f32) (P L : S4096x4096.Idx → EReal) (q : Nat)
    (h0 : ∀ (r : Fin 128) (cc : Fin 4096) (R : Fin 4096), R.val = q * 128 + r.val → x0 (ix2 r cc) = P (ix2 R cc))
    (h1 : ∀ (r : Fin 128) (cc : Fin 4096) (R : Fin 4096), R.val = q * 128 + r.val → x1 (ix2 r cc) = L (ix2 R cc))
    (y : S128x1.Idx) (i : S4096x1.Idx) (hi : (i 0).val = q * 128 + (y 0).val) :
    kout x0 x1 y = G P L i := by
  obtain ⟨r, z, rfl⟩ : ∃ (r : Fin 128) (z : Fin 1), y = ix2 r z := ⟨y 0, y 1, eq_ix2 y⟩
  obtain rfl : z = 0 := Subsingleton.elim _ _
  rw [kout_apply]
  unfold G
  have e0 : row x0 r = row P ⟨(i 0).val, idx2_lt0 i⟩ := funext fun cc => h0 r cc _ hi
  have e1 : row x1 r = row L ⟨(i 0).val, idx2_lt0 i⟩ := funext fun cc => h1 r cc _ hi
  rw [e0, e1]

/-- What point t writes back is block t of the array-level function of the arrays as the region finds them. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2]
  unfold out0_2
  rw [View.canon_unit_zero hz]
  simp only [View.ld_unit_zero (S := S128x4096) hz]
  rw [pay_eq]
  obtain ⟨e00, e01, e10, e11, e20, e21⟩ := idx_facts t
  funext j
  show kout (iblk m c 0 t) (iblk m c 1 t) j = G (V m c main_arg0) (V m c main_arg1) (((cfg0.win 2).blk t).view.emb j)
  refine point (iblk m c 0 t) (iblk m c 1 t) (V m c main_arg0) (V m c main_arg1) t.val ?_ ?_ j _ ?_
  · intro r cc R hR
    show V m c main_arg0 (((cfg0.win 0).blk t).view.emb (ix2 r cc)) = V m c main_arg0 (ix2 R cc)
    refine congrArg _ (funext fun a => Fin.ext ?_)
    match a with
    | ⟨0, _⟩ => show win0_0.index t (0 : Fin 2) * 128 + 1 * r.val = R.val; omega
    | ⟨1, _⟩ => show win0_0.index t (1 : Fin 2) * 4096 + 1 * cc.val = cc.val; omega
  · intro r cc R hR
    show V m c main_arg1 (((cfg0.win 1).blk t).view.emb (ix2 r cc)) = V m c main_arg1 (ix2 R cc)
    refine congrArg _ (funext fun a => Fin.ext ?_)
    match a with
    | ⟨0, _⟩ => show win0_1.index t (0 : Fin 2) * 128 + 1 * r.val = R.val; omega
    | ⟨1, _⟩ => show win0_1.index t (1 : Fin 2) * 4096 + 1 * cc.val = cc.val; omega
  · show win0_2.index t (0 : Fin 2) * 128 + 1 * (j 0).val = t.val * 128 + (j 0).val
    omega

/-- An index of the output array is in point t's block iff each coordinate is in the block's range on its axis. -/
theorem mem_blk (t : Fin cfg0.N) (i : S4096x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v0).slice (win0_2.rect t)).set ↔ _
  rw [View.set_slice_whole, Rect.mem_set_unit]
  exact Iff.rfl

/-- Every row of the output lies in the block of the point numbered by the row divided by 128. -/
theorem cover (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 32 := N_0
  obtain ⟨t, ht⟩ : ∃ t : Fin cfg0.N, t.val = (i 0).val / 128 := ⟨⟨(i 0).val / 128, by rw [hN]; omega⟩, rfl⟩
  obtain ⟨_, _, _, _, e20, e21⟩ := idx_facts t
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1 ≤ (i 1).val ∧ (i 1).val < win0_2.index t (1 : Fin 2) * 1 + 1; omega

/-- The output array after the region. -/
theorem final (c : Dev nD) :
    (dats m 0 c).arrAt 2 cfg0.N = G (m ((c.tc : Thread nD τ).loc main_arg0)) (m ((c.tc : Thread nD τ).loc main_arg1)) :=
  (dats m 0 c).arrAt_eq_of_cover 2 (G (V m c main_arg0) (V m c main_arg1)) (fun t _ => flushed_eq m c t) cover

/-! ## The host operations after the region -/

/-- The host's sum from the zero word of a one-column array over both axes, divided by the word 8192, is the sum over
    the rows of the column's entries, divided by that word. -/
theorem tail_sum (A : S4096x1.Idx → EReal) (i : S_.Idx) :
    Host.divf (Host.reduceAdd (F := Ideal) A (constant S_ .f32 0x00000000#32) reducesTo_S4096x1_S_d0_1 h_S_) (constant S_ .f32 0x46000000#32) i
      = Ideal.div (∑ r : Fin 4096, A (ix2 r (0 : Fin 1))) (Ideal.ofBits .f32 0x46000000#32) := by
  show Ideal.div (Host.reduceAdd (F := Ideal) A (constant S_ .f32 0x00000000#32) reducesTo_S4096x1_S_d0_1 h_S_ i) (Ideal.ofBits .f32 0x46000000#32) = _
  refine congrArg (Ideal.div · _) ?_
  simp only [Host.reduceAdd, Ideal.hostReduceAdd_def]
  rw [Ideal.hostReduceAdd_total reducesTo_S4096x1_S_d0_1 (fun b => b.elim0) A _ i]
  show Ideal.ofBits .f32 0x00000000#32 + _ = _
  rw [Ideal.ofBits_zero_f32, zero_add, sum_idx2]
  exact Finset.sum_congr rfl fun r _ => Fin.sum_univ_one _

/-- The program's result after the host operations that follow the region: the specification's total of the two
    argument arrays. -/
theorem tail_eq (c : Dev nD) :
    Pipeline.afterTail₀ cfgs (dats m) 0 (V0 m) [hostOps1] c main_v2
      = fun _ => total (m ((c.tc : Thread nD τ).loc main_arg0)) (m ((c.tc : Thread nD τ).loc main_arg1)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v0)
      = G (m ((c.tc : Thread nD τ).loc main_arg0)) (m ((c.tc : Thread nD τ).loc main_arg1)) :=
    (Pipeline.withArrays_arr spec0 launch0.win.arr_inj c _ _ 2).trans (final m c)
  rw [hA]
  funext i
  refine (tail_sum _ i).trans ?_
  rfl

/-- The kernel's run: every weakly fair execution ends with the result buffer at the specification's total of the
    argument arrays, and the arguments unchanged. -/
theorem run : θ_run defs (onTc (τ := τ) (main (F := Ideal))) ⟨m, fun _ => 0, ρ⟩ fun r => ∀ c : Dev nD,
      r.2.mem ((c.tc : Thread nD τ).loc main_v2) = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.PV.KerValue

end
-- ==== Proof.Ref.lean ====
/-
  The reference program, read stage by stage, computes the quantity of Spec.lean.

  For one input array, row by row: the successive differences, the interior points, the two one-bit masks of strict
  local maxima and minima, the two masked means, the two masks narrowed by a comparison with those means, and the two
  means over the narrowed masks, set side by side as two columns. The second array goes through the same operations.
  The result is the sum over all rows and both columns of the squared differences, over the word 8192.
  Each lemma reads one stage at an index given by its coordinates and rests on the lemmas for the stages before it.
-/
import proofs.«169107_j29343216566541_1_alg».proof.Proof.Gen.ReferenceIdeal.Read
import proofs.«169107_j29343216566541_1_alg».proof.Proof.Spec

noncomputable section

namespace Cert.PV.Ref

open Cert.ReferenceIdeal Cert.ReferenceIdeal.Read Idealize.ShloMosaic Idealize.ShloMosaic.ValueIdx

/-- An input array: 4096 rows of 4096 extended reals. -/
abbrev Arr : Type := (⟨S4096x4096, .f32⟩ : BufTy).Contents (Elt Ideal)

/-! ## Index equations

The program's slices, row sums and broadcasts read their operand at an index computed from the result's index; here
each such index, at a result index given by its coordinates, is written by its coordinates. -/

/-- Dropping the first column of a row of 4096: position j of 4095 reads column j + 1. -/
theorem i_call0_v0 (r : Fin 4096) (j : Fin 4095) :
    idx_main_call0_v0 (ix2 r j) = ix2 r (⟨j.val + 1, by have := j.isLt; omega⟩ : Fin 4096) :=
  funext fun a => Fin.ext (by match a with | ⟨0, _⟩ => rfl | ⟨1, _⟩ => exact Nat.add_comm _ _)

/-- Dropping the last column of a row of 4096: position j of 4095 reads column j. -/
theorem i_call0_v1 (r : Fin 4096) (j : Fin 4095) :
    idx_main_call0_v1 (ix2 r j) = ix2 r (⟨j.val, by have := j.isLt; omega⟩ : Fin 4096) :=
  funext fun a => Fin.ext (by match a with | ⟨0, _⟩ => rfl | ⟨1, _⟩ => rfl)

/-- Dropping the first and the last column: position k of 4094 reads column k + 1. -/
theorem i_v1 (r : Fin 4096) (k : Fin 4094) :
    idx_main_v1 (ix2 r k) = ix2 r (⟨k.val + 1, by have := k.isLt; omega⟩ : Fin 4096) :=
  funext fun a => Fin.ext (by match a with | ⟨0, _⟩ => rfl | ⟨1, _⟩ => exact Nat.add_comm _ _)

/-- The differences without the last one: position k reads the difference ending at the interior point k. -/
theorem i_v2 (r : Fin 4096) (k : Fin 4094) : idx_main_v2 (ix2 r k) = ix2 r (lo k) :=
  funext fun a => Fin.ext (by match a with | ⟨0, _⟩ => rfl | ⟨1, _⟩ => rfl)

/-- The differences without the first one: position k reads the difference starting at the interior point k. -/
theorem i_v5 (r : Fin 4096) (k : Fin 4094) : idx_main_v5 (ix2 r k) = ix2 r (hi k) :=
  funext fun a => Fin.ext (by match a with | ⟨0, _⟩ => rfl | ⟨1, _⟩ => exact Nat.add_comm _ _)

theorem i_v9 (r : Fin 4096) (k : Fin 4094) : idx_main_v9 (ix2 r k) = ix2 r (lo k) :=
  funext fun a => Fin.ext (by match a with | ⟨0, _⟩ => rfl | ⟨1, _⟩ => rfl)

theorem i_v12 (r : Fin 4096) (k : Fin 4094) : idx_main_v12 (ix2 r k) = ix2 r (hi k) :=
  funext fun a => Fin.ext (by match a with | ⟨0, _⟩ => rfl | ⟨1, _⟩ => exact Nat.add_comm _ _)

/-- A row sum's term k, in row r, is read at (r, k). -/
theorem i_v18 (r : Fin 4096) (k : Fin 4094) : idx_main_v18 (ix1 r) k = ix2 r k :=
  funext fun a => Fin.ext (by match a with | ⟨0, _⟩ => rfl | ⟨1, _⟩ => rfl)
theorem i_v19 (r : Fin 4096) (k : Fin 4094) : idx_main_v19 (ix1 r) k = ix2 r k :=
  funext fun a => Fin.ext (by match a with | ⟨0, _⟩ => rfl | ⟨1, _⟩ => rfl)
theorem i_v23 (r : Fin 4096) (k : Fin 4094) : idx_main_v23 (ix1 r) k = ix2 r k :=
  funext fun a => Fin.ext (by match a with | ⟨0, _⟩ => rfl | ⟨1, _⟩ => rfl)
theorem i_v24 (r : Fin 4096) (k : Fin 4094) : idx_main_v24 (ix1 r) k = ix2 r k :=
  funext fun a => Fin.ext (by match a with | ⟨0, _⟩ => rfl | ⟨1, _⟩ => rfl)
theorem i_v32 (r : Fin 4096) (k : Fin 4094) : idx_main_v32 (ix1 r) k = ix2 r k :=
  funext fun a => Fin.ext (by match a with | ⟨0, _⟩ => rfl | ⟨1, _⟩ => rfl)
theorem i_v33 (r : Fin 4096) (k : Fin 4094) : idx_main_v33 (ix1 r) k = ix2 r k :=
  funext fun a => Fin.ext (by match a with | ⟨0, _⟩ => rfl | ⟨1, _⟩ => rfl)
theorem i_v41 (r : Fin 4096) (k : Fin 4094) : idx_main_v41 (ix1 r) k = ix2 r k :=
  funext fun a => Fin.ext (by match a with | ⟨0, _⟩ => rfl | ⟨1, _⟩ => rfl)
theorem i_v42 (r : Fin 4096) (k : Fin 4094) : idx_main_v42 (ix1 r) k = ix2 r k :=
  funext fun a => Fin.ext (by match a with | ⟨0, _⟩ => rfl | ⟨1, _⟩ => rfl)

/-- A per-row value spread along its row is read, at (r, k), at r. -/
theorem i_v27 (r : Fin 4096) (k : Fin 4094) : idx_main_v26 (idx_main_v27 (ix2 r k)) = ix1 r :=
  funext fun a => Fin.ext (by match a with | ⟨0, _⟩ => rfl)
theorem i_v36 (r : Fin 4096) (k : Fin 4094) : idx_main_v35 (idx_main_v36 (ix2 r k)) = ix1 r :=
  funext fun a => Fin.ext (by match a with | ⟨0, _⟩ => rfl)
/-- A per-row value as a column of width one is read, at (r, 0), at r. -/
theorem i_v44 (r : Fin 4096) (c : Fin 1) : idx_main_v44 (ix2 r c) = ix1 r :=
  funext fun a => Fin.ext (by match a with | ⟨0, _⟩ => rfl)
theorem i_v45 (r : Fin 4096) (c : Fin 1) : idx_main_v45 (ix2 r c) = ix1 r :=
  funext fun a => Fin.ext (by match a with | ⟨0, _⟩ => rfl)

/-! ## The stages of one array, row by row -/

/-- The successive differences. -/
theorem v0_at (x : Arr) (r : Fin 4096) (j : Fin 4095) :
    val_main_v0 (F := Ideal) x (ix2 r j) = dif (row x r) j := by
  rw [val_main_v0_apply, val_main_call0_v0_apply, val_main_call0_v1_apply, i_call0_v0, i_call0_v1]
  rfl

/-- The interior points. -/
theorem v1_at (x : Arr) (r : Fin 4096) (k : Fin 4094) :
    val_main_v1 (F := Ideal) x (ix2 r k) = mid (row x r) k := by
  rw [val_main_v1_apply, i_v1]
  rfl

/-- The four arrays of zeros the differences are compared with. -/
theorem v3_at (i : S4096x4094.Idx) : val_main_v3 (F := Ideal) i = zeroW := by
  rw [val_main_v3_apply, val_main_cst_apply]; rfl
theorem v6_at (i : S4096x4094.Idx) : val_main_v6 (F := Ideal) i = zeroW := by
  rw [val_main_v6_apply, val_main_cst_0_apply]; rfl
theorem v10_at (i : S4096x4094.Idx) : val_main_v10 (F := Ideal) i = zeroW := by
  rw [val_main_v10_apply, val_main_cst_1_apply]; rfl
theorem v13_at (i : S4096x4094.Idx) : val_main_v13 (F := Ideal) i = zeroW := by
  rw [val_main_v13_apply, val_main_cst_2_apply]; rfl

/-- The strict local maxima. -/
theorem v8_at (x : Arr) (r : Fin 4096) (k : Fin 4094) :
    val_main_v8 (F := Ideal) x (ix2 r k) = peak (row x r) k := by
  rw [val_main_v8_apply, val_main_v4_apply, val_main_v7_apply, val_main_v2_apply, val_main_v5_apply, i_v2, i_v5,
    v0_at, v0_at, v3_at, v6_at]
  rfl

/-- The strict local minima. -/
theorem v15_at (x : Arr) (r : Fin 4096) (k : Fin 4094) :
    val_main_v15 (F := Ideal) x (ix2 r k) = valley (row x r) k := by
  rw [val_main_v15_apply, val_main_v11_apply, val_main_v14_apply, val_main_v9_apply, val_main_v12_apply, i_v9, i_v12,
    v0_at, v0_at, v10_at, v13_at]
  rfl

/-- The mean of the maxima. -/
theorem v20_at (x : Arr) (r : Fin 4096) :
    val_main_v20 (F := Ideal) x (ix1 r) = mmean (row x r) (peak (row x r)) := by
  rw [val_main_v20_apply, val_main_v18_apply, val_main_v19_apply, val_main_cst_3_apply, val_main_cst_4_apply,
    Ideal.hostDivf_def, Ideal.ofBits_def, Ideal.ofBits_zero_f32, zero_add, zero_add]
  unfold mmean
  refine congrArg₂ Ideal.div (Finset.sum_congr rfl fun k _ => ?_) (Finset.sum_congr rfl fun k _ => ?_)
  · rw [i_v18, val_main_v17_apply, val_main_v16_apply, v1_at, v8_at]; rfl
  · rw [i_v19, val_main_v16_apply, v8_at]; rfl

/-- The mean of the minima. -/
theorem v25_at (x : Arr) (r : Fin 4096) :
    val_main_v25 (F := Ideal) x (ix1 r) = mmean (row x r) (valley (row x r)) := by
  rw [val_main_v25_apply, val_main_v23_apply, val_main_v24_apply, val_main_cst_5_apply, val_main_cst_6_apply,
    Ideal.hostDivf_def, Ideal.ofBits_def, Ideal.ofBits_zero_f32, zero_add, zero_add]
  unfold mmean
  refine congrArg₂ Ideal.div (Finset.sum_congr rfl fun k _ => ?_) (Finset.sum_congr rfl fun k _ => ?_)
  · rw [i_v23, val_main_v22_apply, val_main_v21_apply, v1_at, v15_at]; rfl
  · rw [i_v24, val_main_v21_apply, v15_at]; rfl

/-- The maxima that are at least the mean of all maxima. -/
theorem v29_at (x : Arr) (r : Fin 4096) (k : Fin 4094) :
    val_main_v29 (F := Ideal) x (ix2 r k)
      = IntOp.andi (peak (row x r) k) (Ideal.cmp .oge (mid (row x r) k) (mmean (row x r) (peak (row x r)))) := by
  rw [val_main_v29_apply, val_main_v28_apply, val_main_v27_apply, val_main_v26_apply, i_v27, v8_at, v1_at, v20_at]
  rfl

/-- The minima that are at most the mean of all minima. -/
theorem v38_at (x : Arr) (r : Fin 4096) (k : Fin 4094) :
    val_main_v38 (F := Ideal) x (ix2 r k)
      = IntOp.andi (valley (row x r) k) (Ideal.cmp .ole (mid (row x r) k) (mmean (row x r) (valley (row x r)))) := by
  rw [val_main_v38_apply, val_main_v37_apply, val_main_v36_apply, val_main_v35_apply, i_v36, v15_at, v1_at, v25_at]
  rfl

/-- The mean of the high maxima. -/
theorem v34_at (x : Arr) (r : Fin 4096) : val_main_v34 (F := Ideal) x (ix1 r) = sbp (row x r) := by
  rw [val_main_v34_apply, val_main_v32_apply, val_main_v33_apply, val_main_cst_7_apply, val_main_cst_8_apply,
    Ideal.hostDivf_def, Ideal.ofBits_def, Ideal.ofBits_zero_f32, zero_add, zero_add]
  unfold sbp mmean
  refine congrArg₂ Ideal.div (Finset.sum_congr rfl fun k _ => ?_) (Finset.sum_congr rfl fun k _ => ?_)
  · rw [i_v32, val_main_v31_apply, val_main_v30_apply, v1_at, v29_at]; rfl
  · rw [i_v33, val_main_v30_apply, v29_at]; rfl

/-- The mean of the low minima. -/
theorem v43_at (x : Arr) (r : Fin 4096) : val_main_v43 (F := Ideal) x (ix1 r) = dbp (row x r) := by
  rw [val_main_v43_apply, val_main_v41_apply, val_main_v42_apply, val_main_cst_9_apply, val_main_cst_10_apply,
    Ideal.hostDivf_def, Ideal.ofBits_def, Ideal.ofBits_zero_f32, zero_add, zero_add]
  unfold dbp mmean
  refine congrArg₂ Ideal.div (Finset.sum_congr rfl fun k _ => ?_) (Finset.sum_congr rfl fun k _ => ?_)
  · rw [i_v41, val_main_v40_apply, val_main_v39_apply, v1_at, v38_at]; rfl
  · rw [i_v42, val_main_v39_apply, v38_at]; rfl

/-- The two means side by side: column 0 is the mean of the high maxima. -/
theorem v46_at0 (x : Arr) (r : Fin 4096) :
    val_main_v46 (F := Ideal) x (ix2 r (0 : Fin 2)) = sbp (row x r) := by
  unfold val_main_v46
  refine (concatenate_pair_apply_left (1 : Fin 2) (val_main_v44 (F := Ideal) x) (val_main_v45 (F := Ideal) x)
    _ (ix2 r (0 : Fin 2)) rfl (ix2 r (0 : Fin 1))
    (fun b => by match b with | ⟨0, _⟩ => rfl | ⟨1, _⟩ => rfl)).trans ?_
  rw [val_main_v44_apply, i_v44, v34_at]

/-- Column 1 is the mean of the low minima. -/
theorem v46_at1 (x : Arr) (r : Fin 4096) :
    val_main_v46 (F := Ideal) x (ix2 r (1 : Fin 2)) = dbp (row x r) := by
  unfold val_main_v46
  refine (concatenate_pair_apply_right (1 : Fin 2) (val_main_v44 (F := Ideal) x) (val_main_v45 (F := Ideal) x)
    _ (ix2 r (1 : Fin 2)) rfl rfl (ix2 r (0 : Fin 1))
    (fun b hb => by match b, hb with | ⟨0, _⟩, _ => rfl | ⟨1, _⟩, hb => exact absurd rfl hb) rfl).trans ?_
  rw [val_main_v45_apply, i_v45, v43_at]

/-! ## The second array

The program computes the second array's two means by the same operations as the first's, under other names: as
functions of the array the two are the same. -/

theorem v93_eq (x : Arr) : val_main_v93 (F := Ideal) x = val_main_v46 (F := Ideal) x := rfl

/-! ## The result -/

/-- The program's result is the rows' contributions summed, over the word 8192. -/
theorem result (x0 x1 : (⟨Cert.ReferenceIdeal.S4096x4096, .f32⟩ : BufTy).Contents (Elt Ideal)) (i : Cert.ReferenceIdeal.S_.Idx) :
    Cert.ReferenceIdeal.Read.val_main_v97 (F := Ideal) x0 x1 i = Cert.PV.total x0 x1 := by
  rw [val_main_v97_apply, val_main_v96_apply, val_main_cst_23_apply, val_main_cst_24_apply,
    Ideal.hostDivf_def, Ideal.ofBits_def, Ideal.ofBits_def, Ideal.ofBits_zero_f32, zero_add]
  unfold total
  generalize Ideal.ofBits FTy.f32 0x46000000#32 = W
  refine congrArg (fun t => Ideal.div t W) ?_
  rw [sum_idx2]
  refine Finset.sum_congr rfl fun r _ => ?_
  rw [Fin.sum_univ_two, val_main_v95_apply, val_main_v95_apply, val_main_v94_apply, val_main_v94_apply, v93_eq,
    v46_at0, v46_at1, v46_at0, v46_at1]
  rfl

end Cert.PV.Ref

end
-- ==== Proof.lean ====
/-
  The claim: the kernel's program and the reference compute one number.

  Both programs take two 4096 × 4096 arrays and return, on the extended reals, the same total: for each row of each
  array the mean of the strict local maxima that reach the mean of all strict local maxima and the mean of the strict
  local minima that stay under the mean of all strict local minima; per row the two squared differences between the
  arrays' means, added; the rows' contributions summed and divided by 8192. The kernel computes the rows' contributions
  128 rows at a time and the host sums the resulting column; the reference stacks the two means as two columns, squares
  the difference and sums all 8192 entries. A sum of 4096 pairs and the sum of the 8192 entries are one sum in any
  commutative monoid, so the two results agree for all inputs, infinities included; the precondition is not used.
  The three frames are the generated ones (the reference's is its run with the result dropped); the idealization
  rewrote no operation.
-/
import proofs.«169107_j29343216566541_1_alg».proof.Defs
import proofs.«169107_j29343216566541_1_alg».proof.Proof.Gen.Kernel
import proofs.«169107_j29343216566541_1_alg».proof.Proof.Gen.Kernel.Skeleton
import proofs.«169107_j29343216566541_1_alg».proof.Proof.Gen.Kernel.Launch
import proofs.«169107_j29343216566541_1_alg».proof.Proof.Gen.Kernel.Points
import proofs.«169107_j29343216566541_1_alg».proof.Proof.Gen.Kernel.Frame
import proofs.«169107_j29343216566541_1_alg».proof.Proof.Gen.KernelIdeal
import proofs.«169107_j29343216566541_1_alg».proof.Proof.Gen.KernelIdeal.Skeleton
import proofs.«169107_j29343216566541_1_alg».proof.Proof.Gen.KernelIdeal.Launch
import proofs.«169107_j29343216566541_1_alg».proof.Proof.Gen.KernelIdeal.Points
import proofs.«169107_j29343216566541_1_alg».proof.Proof.Gen.KernelIdeal.Frame
import proofs.«169107_j29343216566541_1_alg».proof.Proof.Gen.ReferenceIdeal
import proofs.«169107_j29343216566541_1_alg».proof.Proof.Gen.Pre_finite_inputs
import proofs.«169107_j29343216566541_1_alg».proof.Proof.Gen.ReferenceIdeal.Run
import proofs.«169107_j29343216566541_1_alg».proof.Proof.Gen.ReferenceIdeal.Read
import proofs.«169107_j29343216566541_1_alg».proof.Proof.KerValue
import proofs.«169107_j29343216566541_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the specification's total of the (agreeing) argument arrays. -/
theorem algebraic : Cert.algebraic_KernelIdeal_ReferenceIdeal := by
  intro m ρ m' ρ' _ hagree
  refine ⟨fun c => fun _ => Cert.PV.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.PV.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq]
  funext i
  rw [Cert.PV.Ref.result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
